-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1200000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S5000x64 : Shape := ⟨2, ![5000, 64]⟩
abbrev S5000x1 : Shape := ⟨2, ![5000, 1]⟩
abbrev S1300000x64 : Shape := ⟨2, ![1300000, 64]⟩
abbrev S1x64 : Shape := ⟨2, ![1, 64]⟩

abbrev nBuf : Space → Nat
  | .hbm => 43
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1200000, .i32⟩
  | .hbm, ⟨6, _⟩ => ⟨S1200000, .i32⟩
  | .hbm, ⟨7, _⟩ => ⟨S1300000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S_, .f32⟩
  | .hbm, ⟨12, _⟩ => ⟨S1300000, .f32⟩
  | .hbm, ⟨13, _⟩ => ⟨S_, .f32⟩
  | .hbm, ⟨14, _⟩ => ⟨S100000, .f32⟩
  | .hbm, ⟨15, _⟩ => ⟨S1300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .bf16⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000x64, .bf16⟩
  | .hbm, ⟨36, _⟩ => ⟨S1300000x64, .f32⟩
  | .hbm, ⟨37, _⟩ => ⟨S_, .f32⟩
  | .hbm, ⟨38, _⟩ => ⟨S100000x64, .f32⟩
  | .hbm, ⟨39, _⟩ => ⟨S1300000x1, .i32⟩
  | .hbm, ⟨40, _⟩ => ⟨S100000x64, .f32⟩
  | .hbm, ⟨41, _⟩ => ⟨S1x64, .f32⟩
  | .hbm, ⟨42, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1300000x1_S1300000_n_0_0_1_wf : ScatterDims.WF S100000 S1300000x1 S1300000 [] [0] [0] 1
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1200000, .i32⟩
  | .hbm, ⟨7, _⟩ => ⟨S1200000, .i32⟩
  | .hbm, ⟨8, _⟩ => ⟨S1300000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S_, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000x64, .f32⟩
  | .hbm, ⟨54, _⟩ => ⟨S1300000x1, .f32⟩
  | .hbm, ⟨55, _⟩ => ⟨S1300000x64, .f32⟩
  | .hbm, ⟨56, _⟩ => ⟨S1300000x64, .f32⟩
  | .hbm, ⟨57, _⟩ => ⟨S_, .f32⟩
  | .hbm, ⟨58, _⟩ => ⟨S100000x64, .f32⟩
  | .hbm, ⟨59, _⟩ => ⟨S1300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.GraphDefs.lean ====
/-
  The graph layer's shared pieces, each ONE function of the edge list, at the ideal instance (floats are extended reals).
  Both programs build the same source and destination index vectors (the edge list's two rows, each followed by the
  self-loops 0 … 99999), the same in-degree (a scatter-add of ones at the destination indices, so an index outside
  [0, 100000) contributes nothing), and the same inverse square root of it, chosen where the degree is positive and zero
  elsewhere. `refOut` is the reference's result: every gathered row of x·W scaled by dinv at its (wrapped, clamped) source
  and destination, summed into its destination row, plus the bias, clamped below at zero.
-/
import proofs.«142132_j28303834481477_2_alg».proof.Proof.Gen.ReferenceIdeal
import Idealize.ShloMosaic.PureOps.Ideal

noncomputable section

namespace Cert.Graph

open Idealize.ShloMosaic Cert.ReferenceIdeal Cert.ReferenceIdeal.Gen

/-- The source index of every edge, then of every self-loop. -/
def srcOf (ei : IVec S2x1200000 32) : IVec S1300000 32 :=
  (concatenate S1300000 0 [⟨S1200000, (shapeCast _ (extractStridedSlice S1x1200000 ![0, 0] ei slices_S2x1200000_S1x1200000_0_0) shapeCasts_S1x1200000_S1200000)⟩, ⟨S100000, (iotaInDim S100000 32 0)⟩] concatenates_S1200000_S100000_S1300000_d0)

/-- The destination index of every edge, then of every self-loop. -/
def dstOf (ei : IVec S2x1200000 32) : IVec S1300000 32 :=
  (concatenate S1300000 0 [⟨S1200000, (shapeCast _ (extractStridedSlice S1x1200000 ![1, 0] ei slices_S2x1200000_S1x1200000_1_0) shapeCasts_S1x1200000_S1200000)⟩, ⟨S100000, (iotaInDim S100000 32 0)⟩] concatenates_S1200000_S100000_S1300000_d0)

/-- An index vector as the one-column array of start indices a scatter reads (unwrapped: a negative or too large index is dropped). -/
def rawIx (v : IVec S1300000 32) : IVec S1300000x1 32 :=
  (broadcastInDim S1300000x1 ![0] bcast_S1300000_S1300000x1_0 v)

/-- The same with negative indices moved up by the table's length first, as array indexing does before a gather. -/
def wrapIx (v : IVec S1300000 32) : IVec S1300000x1 32 :=
  (broadcastInDim S1300000x1 ![0] bcast_S1300000_S1300000x1_0 (select (cmpi .slt v (broadcastInDim S1300000 ![] bcast_S_S1300000 (constantI S_ 32 0#32))) (addi v (broadcastInDim S1300000 ![] bcast_S_S1300000 (constantI S_ 32 100000#32))) v))

/-- The in-degree: ones summed at the destination indices. -/
def degOf (ei : IVec S2x1200000 32) : FVec Ideal S100000 .f32 :=
  (Host.scatterAdd scatter_S100000_S1300000x1_S1300000_n_0_0_1 (broadcastInDim S100000 ![] bcast_S_S100000 (constant S_ .f32 0x00000000#32)) (rawIx (dstOf ei)) (broadcastInDim S1300000 ![] bcast_S_S1300000 (constant S_ .f32 0x3F800000#32)))

/-- deg^(-1/2) where the degree is positive, zero elsewhere. -/
def dinvOf (ei : IVec S2x1200000 32) : FVec Ideal S100000 .f32 :=
  select (cmpf (F := Ideal) .ogt (degOf ei) (broadcastInDim S100000 ![] bcast_S_S100000 (constant S_ .f32 0x00000000#32))) (Host.rsqrt (degOf ei)) (broadcastInDim S100000 ![] bcast_S_S100000 (id (constant S_ .f32 0x00000000#32)))

/-- The kernel's aggregation: the rows of a (narrow-format) table `hs` gathered at the wrapped source indices, widened, and summed into their destination rows. -/
def aggK (hs : FVec Ideal S100000x64 .bf16) (src dst : IVec S1300000 32) : FVec Ideal S100000x64 .f32 :=
  Host.scatterAdd scatter_S100000x64_S1300000x1_S1300000x64_1_0_0_1 (broadcastInDim S100000x64 ![] bcast_S_S100000x64 (constant S_ .f32 0x00000000#32)) (rawIx dst)
    (extf .f32 (Host.gather gather_S100000x64_S1300000x1_S1300000x64_1_0_n_n_0_1_164 hs (wrapIx src)) (by decide))

/-- The reference's result. -/
def refOut (x : FVec Ideal S100000x64 .f32) (ei : IVec S2x1200000 32) (w : FVec Ideal S64x64 .f32) (b : FVec Ideal S64 .f32) : FVec Ideal S100000x64 .f32 :=
  maximumf (addf (Host.scatterAdd scatter_S100000x64_S1300000x1_S1300000x64_1_0_0_1 (broadcastInDim S100000x64 ![] bcast_S_S100000x64 (constant S_ .f32 0x00000000#32)) (rawIx (dstOf ei)) (mulf (Host.gather gather_S100000x64_S1300000x1_S1300000x64_1_0_n_n_0_1_164 (Host.dotGeneral dot_S100000x64_S64x64_S100000x64_1_0_0_1_n_n none x w) (wrapIx (srcOf ei))) (broadcastInDim S1300000x64 ![0, 1] bcast_S1300000x1_S1300000x64_0_1 (broadcastInDim S1300000x1 ![0] bcast_S1300000_S1300000x1_0 (mulf (Host.gather gather_S100000_S1300000x1_S1300000_n_0_n_n_0_1_1 (dinvOf ei) (wrapIx (srcOf ei))) (Host.gather gather_S100000_S1300000x1_S1300000_n_0_n_n_0_1_1 (dinvOf ei) (wrapIx (dstOf ei)))))))) (broadcastInDim S100000x64 ![0, 1] bcast_S1x64_S100000x64_0_1 (broadcastInDim S1x64 ![1] bcast_S64_S1x64_1 b))) (broadcastInDim S100000x64 ![] bcast_S_S100000x64 (constant S_ .f32 0x00000000#32))

end Cert.Graph

end
-- ==== Proof.RefValue.lean ====
/-
  The reference's run ends with its result array at one composed term of the four argument arrays; that term is the
  function `refOut` of them (the same operations, with the shared pieces — source and destination indices, degree,
  dinv — named once).
-/
import proofs.«142132_j28303834481477_2_alg».proof.Proof.RefRun
import proofs.«142132_j28303834481477_2_alg».proof.Proof.GraphDefs

noncomputable section

namespace Cert.Graph

open Idealize.ShloMosaic Idealize.ShloMosaic.TcCoe Idealize.SL.Sem Cert.ReferenceIdeal Cert.ReferenceIdeal.Gen

set_option maxRecDepth 8192 in
/-- The reference's result term is `refOut` of the launch contents of its arguments. -/
theorem res_eq_refOut (m : (ℓ : Loc nD τ sig) → Buf (Elt Ideal) ℓ) (c : Dev nD) :
    Cert.ReferenceIdeal.ValueP.res_main_v47 (F := Ideal) m c
      = refOut (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v47 refOut dinvOf degOf wrapIx rawIx srcOf dstOf
  rfl

end Cert.Graph

end
-- ==== Proof.KRun.lean ====
/-
  The idealized kernel's run, with its result named. Every weakly fair execution of the kernel's @main terminates without a
  fault; at the end the result array holds what the last segment boundary's contents assign to it — the fold of the host
  stretches and the two regions' write-backs from the launch memory — and the four argument arrays are as launched.
  The run is the generated frame's (its segments, thread states and launch), read at one more buffer at the end.
-/
import proofs.«142132_j28303834481477_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The kernel's run: it ends with the result array at the last boundary's contents and the arguments as launched. -/
theorem run_main : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Run

end
-- ==== Proof.KFold.lean ====
/-
  The kernel's buffers at each segment boundary, read back to the launch memory.
  Before the first region the host has built the source and destination index vectors, the in-degree and dinv, and
  reshaped dinv into a column; the first region reads x, W and that column and writes a narrow-format table; the host
  then gathers that table's rows at the wrapped source indices and sums them into their destination rows, and reshapes
  the bias into one row; the second region reads that sum, the dinv column and the bias row. Nothing else is written in
  between, so each of these buffers is the named function (GraphDefs) of the launch contents of the four arguments.
-/
import proofs.«142132_j28303834481477_2_alg».proof.Proof.Gen.KernelIdeal.Frame
import proofs.«142132_j28303834481477_2_alg».proof.Proof.GraphDefs
import Idealize.ShloMosaic.Lib.ValueIdx
import Idealize.ShloMosaic.Lib.StableHlo.Run

set_option maxRecDepth 16384

noncomputable section

namespace Cert.KernelIdeal.Fold

open Idealize.ShloMosaic Idealize.ShloMosaic.ValueIdx Idealize.ShloMosaic.TcCoe Idealize.SL.Sem Idealize.ShloMosaic.StableHlo
open Cert.KernelIdeal Cert.KernelIdeal.Gen Cert.Graph

variable (m : (ℓ : Loc nD τ sig) → Buf (Elt Ideal) ℓ) (ρ : Dev nD → PrngReg) (c : Dev nD)

/-! ## What the first region finds -/

theorem W3_src : W3 m ρ c (Proc.devRef .tc main_v3) = srcOf (m ((c.tc : Thread nD τ).loc main_arg1)) := by
  after_results
  rfl

theorem W3_dst : W3 m ρ c (Proc.devRef .tc main_v6) = dstOf (m ((c.tc : Thread nD τ).loc main_arg1)) := by
  after_results
  rfl

theorem W3_arg0 : W3 m ρ c (Proc.devRef .tc main_arg0) = m ((c.tc : Thread nD τ).loc main_arg0) := by
  after_results

theorem W3_arg2 : W3 m ρ c (Proc.devRef .tc main_arg2) = m ((c.tc : Thread nD τ).loc main_arg2) := by
  after_results

theorem W3_arg3 : W3 m ρ c (Proc.devRef .tc main_arg3) = m ((c.tc : Thread nD τ).loc main_arg3) := by
  after_results

/-! ### dinv: the degree, the positivity mask and the inverse square root over it, then the choice between that and zero -/

theorem W1_deg : W1 m ρ c (Proc.devRef .tc main_v10) = degOf (m ((c.tc : Thread nD τ).loc main_arg1)) := by
  after_results
  rfl

theorem W1_mask : W1 m ρ c (Proc.devRef .tc main_v12)
    = cmpf (F := Ideal) .ogt (degOf (m ((c.tc : Thread nD τ).loc main_arg1))) (broadcastInDim S100000 ![] bcast_S_S100000 (constant S_ .f32 0x00000000#32)) := by
  rw [← W1_deg m ρ c]
  after_results

theorem W1_rs : W1 m ρ c (Proc.devRef .tc main_v13) = Host.rsqrt (degOf (m ((c.tc : Thread nD τ).loc main_arg1))) := by
  rw [← W1_deg m ρ c]
  after_results

theorem W1_zero : W1 m ρ c (Proc.devRef .tc main_cst_2) = constant (F := Ideal) S_ .f32 0x00000000#32 := by
  after_results

theorem W2_where : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) := by
  show StableHlo.after hostOps0_1 (W1 m ρ c) _ = _
  generalize W1 m ρ c = V
  after_results
  rfl

theorem W2_dinv : W2 m ρ c (Proc.devRef .tc main_v14) = dinvOf (m ((c.tc : Thread nD τ).loc main_arg1)) := by
  rw [W2_where, W1_mask, W1_rs, W1_zero]
  rfl

/-- The dinv column. -/
theorem W3_dinv : W3 m ρ c (Proc.devRef .tc main_v15)
    = shapeCast S100000x1 (dinvOf (m ((c.tc : Thread nD τ).loc main_arg1))) shapeCasts_S100000_S100000x1 := by
  rw [← W2_dinv m ρ c]
  show StableHlo.after hostOps0_2 (W2 m ρ c) _ = _
  generalize W2 m ρ c = V
  after_results
  rfl

/-! ## After the first region: its inputs and every other buffer as entered, its output at what the blocks wrote -/

theorem W4_src : W4 m ρ c (Proc.devRef .tc main_v3) = srcOf (m ((c.tc : Thread nD τ).loc main_arg1)) :=
  (W4_of_ne m ρ c main_v3 (by decide)).trans (W3_src m ρ c)

theorem W4_dst : W4 m ρ c (Proc.devRef .tc main_v6) = dstOf (m ((c.tc : Thread nD τ).loc main_arg1)) :=
  (W4_of_ne m ρ c main_v6 (by decide)).trans (W3_dst m ρ c)

theorem W4_arg3 : W4 m ρ c (Proc.devRef .tc main_arg3) = m ((c.tc : Thread nD τ).loc main_arg3) :=
  (W4_of_ne m ρ c main_arg3 (by decide)).trans (W3_arg3 m ρ c)

theorem W4_dinv : W4 m ρ c (Proc.devRef .tc main_v15)
    = shapeCast S100000x1 (dinvOf (m ((c.tc : Thread nD τ).loc main_arg1))) shapeCasts_S100000_S100000x1 :=
  ((W4_arr m ρ c 2).trans (((dat0 (V3 m ρ) c).arrAt_in 2 rfl _).trans (A_eq0 (V3 m ρ) c 2))).trans (W3_dinv m ρ c)

/-! ## What the second region finds -/

/-- The aggregated table: the first region's output gathered by source and summed by destination. -/
theorem W5_agg : W5 m ρ c (Proc.devRef .tc main_v27)
    = aggK (W4 m ρ c (Proc.devRef .tc main_v16)) (srcOf (m ((c.tc : Thread nD τ).loc main_arg1))) (dstOf (m ((c.tc : Thread nD τ).loc main_arg1))) := by
  rw [← W4_src m ρ c, ← W4_dst m ρ c]
  show StableHlo.after hostOps1 (W4 m ρ c) _ = _
  generalize W4 m ρ c = V
  after_results
  rfl

theorem W5_dinv : W5 m ρ c (Proc.devRef .tc main_v15)
    = shapeCast S100000x1 (dinvOf (m ((c.tc : Thread nD τ).loc main_arg1))) shapeCasts_S100000_S100000x1 := by
  rw [← W4_dinv m ρ c]
  show StableHlo.after hostOps1 (W4 m ρ c) _ = _
  generalize W4 m ρ c = V
  after_results

theorem W5_bias : W5 m ρ c (Proc.devRef .tc main_v28)
    = shapeCast S1x64 (m ((c.tc : Thread nD τ).loc main_arg3)) shapeCasts_S64_S1x64 := by
  rw [← W4_arg3 m ρ c]
  show StableHlo.after hostOps1 (W4 m ρ c) _ = _
  generalize W4 m ρ c = V
  after_results
  rfl

end Cert.KernelIdeal.Fold

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.RegionValue.lean ====
/-
  What the two tiled regions of the graph-convolution layer leave in their output arrays, at the extended reals, for
  any contents of the arrays they read.

  Region 0 walks the 100000 rows of the feature array in twenty blocks of 5000 rows. On a block it multiplies the
  block's rows by the whole 64 x 64 weight and scales every row of the product by that row's entry of a column of
  factors. Since row r of block t is row 5000 t + r of the array, and the twenty blocks tile the rows, the output
  array is, entry by entry,   out (p, q) = (sum over k of x (p, k) * w (k, q)) * d (p, 0).

  Region 1 walks the same twenty row blocks: it scales every row of its input by the same column of factors, adds
  the one bias row to every row, and clamps below at zero, so that   out (p, q) = max (a (p, q) * d (p, 0) + b (0, q)) 0.

  Changes of float format are the identity at the extended reals, the product into a zero accumulator is the plain
  sum over the contracted axis, and the shape casts of this kernel keep the shape, so each block's value is read off
  index by index; the passage from blocks to the array is the tiling arithmetic p = 5000 (p / 5000) + p % 5000.
-/
import proofs.«142132_j28303834481477_2_alg».proof.Proof.Gen.KernelIdeal.Frame
import proofs.«142132_j28303834481477_2_alg».proof.Proof.Gen.Pre_finite_inputs
import proofs.«142132_j28303834481477_2_alg».proof.ReferenceIdeal
import proofs.«142132_j28303834481477_2_alg».proof.Proof.LibPlain
import Idealize.ShloMosaic.Lib.ValueIdx
import Idealize.ShloMosaic.Lib.ValueLayout
import Idealize.ShloMosaic.Lib.Pipeline.Value
import Idealize.ShloMosaic.PureOps.Ideal.Laws

noncomputable section
open Idealize.ShloMosaic Idealize.ShloMosaic.ValueIdx Idealize.ShloMosaic.TcCoe Idealize.SL.Sem

namespace Cert.KernelIdeal.RegionValue
open Cert.KernelIdeal Cert.KernelIdeal.Gen

/-! ## The two bodies on one block, index by index -/

/-- Region 0's body on a block: entry (r, q) is the inner product of row r of the block of x with column q of w,
    times the block's factor for row r. -/
theorem pay0_apply (x0 : S5000x64.Idx → EReal) (x1 : S64x64.Idx → EReal) (x2 : S5000x1.Idx → EReal)
    (r : Fin 5000) (q : Fin 64) :
    (k0_pay1 (F := Ideal) x0 x1 x2 (ix2 r q) : EReal)
      = (∑ k : Fin 64, x0 (ix2 r k) * x1 (ix2 k q)) * x2 (ix2 r 0) := by
  unfold k0_pay1
  refine congrArg₂ (fun a b : EReal => a * b) ?_ ?_
  · exact Ideal.matmul_plain_zero_apply (M := 5000) (K := 64) (N := 64) none (truncf .bf16 (x0 : FVec Ideal S5000x64 .f32) bitsLt_bf16_f32) (truncf .bf16 (x1 : FVec Ideal S64x64 .f32) bitsLt_bf16_f32) r q
  · exact (broadcastTo_col _ _ r q).trans (congrFun (shapeCast_self x2 _) (ix2 r 0))

/-- Region 1's body on a block: entry (r, q) scaled by the block's factor for row r, plus the bias of column q,
    clamped below at zero. -/
theorem pay1_apply (x0 : S5000x64.Idx → EReal) (x1 : S5000x1.Idx → EReal) (x2 : S1x64.Idx → EReal)
    (r : Fin 5000) (q : Fin 64) :
    (k1_pay1 (F := Ideal) x0 x1 x2 (ix2 r q) : EReal)
      = max (x0 (ix2 r q) * x1 (ix2 r 0) + x2 (ix2 0 q)) 0 := by
  unfold k1_pay1
  refine congrArg₂ (fun a b : EReal => max a b) (congrArg₂ (fun a b : EReal => a + b) (congrArg₂ (fun a b : EReal => a * b) ?_ ?_) ?_) ?_
  · exact congrFun (shapeCast_self x0 _) (ix2 r q)
  · exact (broadcastTo_col _ _ r q).trans (congrFun (shapeCast_self x1 _) (ix2 r 0))
  · exact (broadcastTo_1b_ab_apply _ _ r q).trans (congrFun (shapeCast_self x2 _) (ix2 0 q))
  · exact Ideal.ofBits_zero_f32

/-- The offsets of a load or store of a whole block are all zero. -/
theorem hz : (![0, 0] : Fin 2 → Nat) = fun _ => 0 := funext fun a => by fin_cases a <;> rfl

/-! ## Region 0 : rows scaled after the product -/

/-- The block index maps over the grid: the row blocks move with the point, the weight block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the features is rows 5000 t … 5000 t + 4999 of the array. -/
theorem blk0_0_apply (V : (c : Dev nD) → (b : Ref sig .tc) → Buf (Elt Ideal) ((c : Thread nD τ).loc b)) (c : Dev nD)
    (t : Fin cfg0.N) (y : S5000x64.Idx) (k : S100000x64.Idx)
    (hk0 : (k 0).val = 5000 * t.val + (y 0).val) (hk1 : (k 1).val = (y 1).val) :
    (iblk0 (F := Ideal) V c 0 t : S5000x64.Idx → EReal) y = (V c main_arg0 : S100000x64.Idx → EReal) k := by
  obtain ⟨e0, e1, -⟩ := idx_facts0 t
  unfold iblk0
  rw [View.read_apply]
  show (V c main_arg0 : S100000x64.Idx → EReal) _ = _
  refine congrArg _ (funext fun a => Fin.ext ?_)
  match a with
  | ⟨0, _⟩ => show win0_0.index t 0 * 5000 + 1 * (y 0).val = (k 0).val; rw [e0, hk0]; omega
  | ⟨1, _⟩ => show win0_0.index t 1 * 64 + 1 * (y 1).val = (k 1).val; rw [e1, hk1]; omega

/-- The weight's one block is the whole weight, at every point. -/
theorem blk0_1_apply (V : (c : Dev nD) → (b : Ref sig .tc) → Buf (Elt Ideal) ((c : Thread nD τ).loc b)) (c : Dev nD)
    (t : Fin cfg0.N) (y : S64x64.Idx) :
    (iblk0 (F := Ideal) V c 1 t : S64x64.Idx → EReal) y = (V c main_arg2 : S64x64.Idx → EReal) y := by
  obtain ⟨-, -, e0, e1, -⟩ := idx_facts0 t
  unfold iblk0
  rw [View.read_apply]
  show (V c main_arg2 : S64x64.Idx → EReal) _ = _
  refine congrArg _ (funext fun a => Fin.ext ?_)
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- Block t of the scaling column is its rows 5000 t … 5000 t + 4999. -/
theorem blk0_2_apply (V : (c : Dev nD) → (b : Ref sig .tc) → Buf (Elt Ideal) ((c : Thread nD τ).loc b)) (c : Dev nD)
    (t : Fin cfg0.N) (y : S5000x1.Idx) (k : S100000x1.Idx)
    (hk0 : (k 0).val = 5000 * t.val + (y 0).val) (hk1 : (k 1).val = (y 1).val) :
    (iblk0 (F := Ideal) V c 2 t : S5000x1.Idx → EReal) y = (V c main_v15 : S100000x1.Idx → EReal) k := by
  obtain ⟨-, -, -, -, e0, e1, -⟩ := idx_facts0 t
  unfold iblk0
  rw [View.read_apply]
  show (V c main_v15 : S100000x1.Idx → EReal) _ = _
  refine congrArg _ (funext fun a => Fin.ext ?_)
  match a with
  | ⟨0, _⟩ => show win0_2.index t 0 * 5000 + 1 * (y 0).val = (k 0).val; rw [e0, hk0]; omega
  | ⟨1, _⟩ => show win0_2.index t 1 * 1 + 1 * (y 1).val = (k 1).val; rw [e1, hk1]; omega

/-- An element of the output's block t sits in the array at row 5000 t + its row, same column. -/
theorem emb0_3 (t : Fin cfg0.N) (y : S5000x64.Idx) (k : S100000x64.Idx)
    (hk0 : (k 0).val = 5000 * t.val + (y 0).val) (hk1 : (k 1).val = (y 1).val) :
    ((cfg0.win 3).blk t).view.emb y = k := by
  obtain ⟨-, -, -, -, -, -, e0, e1⟩ := idx_facts0 t
  refine funext fun a => Fin.ext ?_
  match a with
  | ⟨0, _⟩ => show win0_3.index t 0 * 5000 + 1 * (y 0).val = (k 0).val; rw [e0, hk0]; omega
  | ⟨1, _⟩ => show win0_3.index t 1 * 64 + 1 * (y 1).val = (k 1).val; rw [e1, hk1]; omega

/-- What region 0 computes, as one function of the three arrays it reads: each row of x · w scaled by that row's factor. -/
def G0 (x : S100000x64.Idx → EReal) (w : S64x64.Idx → EReal) (dv : S100000x1.Idx → EReal) : S100000x64.Idx → EReal :=
  fun i => (∑ k : Fin 64, x (ix2 (i 0) k) * w (ix2 k (i 1))) * dv (ix2 (i 0) 0)

/-- What point t writes back is block t of that function. -/
theorem flushed0_eq (V : (c : Dev nD) → (b : Ref sig .tc) → Buf (Elt Ideal) ((c : Thread nD τ).loc b)) (c : Dev nD)
    (x : S100000x64.Idx → EReal) (w : S64x64.Idx → EReal) (dv : S100000x1.Idx → EReal)
    (hx : V c main_arg0 = x) (hw : V c main_arg2 = w) (hdv : V c main_v15 = dv) (t : Fin cfg0.N) :
    (dat0 (F := Ideal) V c).flushed 3 t = ((cfg0.win 3).blk t).view.read (Elt Ideal) (G0 x w dv) := by
  subst hx hw hdv
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S5000x1) hz]
  funext j
  obtain ⟨r, q, rfl⟩ : ∃ (r : Fin 5000) (q : Fin 64), j = ix2 r q := ⟨j 0, j 1, eq_ix2 j⟩
  have ht : t.val < 20 := Nat.lt_of_lt_of_eq t.isLt (show cfg0.N = 20 from N_0)
  rw [View.read_apply, emb0_3 t (ix2 r q) (ix2 (⟨5000 * t.val + r.val, by have := r.isLt; omega⟩ : Fin 100000) q) rfl rfl]
  refine (pay0_apply _ _ _ r q).trans ?_
  refine congrArg₂ (fun a b : EReal => a * b) (Finset.sum_congr rfl fun k _ => congrArg₂ (fun a b : EReal => a * b) ?_ ?_) ?_
  · exact blk0_0_apply V c t (ix2 r k) (ix2 _ k) rfl rfl
  · exact blk0_1_apply V c t (ix2 k q)
  · exact blk0_2_apply V c t (ix2 r 0) (ix2 _ 0) rfl rfl

/-- An index of the output array is in point t's block iff its row is among the block's 5000 rows. -/
theorem mem_blk0_3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- The twenty blocks cover the array: row p is in block p / 5000. -/
theorem cover0 (i : S100000x64.Idx) : ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 20 := N_0
  refine ⟨⟨(i 0).val / 5000, by rw [hN]; omega⟩, flush0_3 _, ?_⟩
  rw [mem_blk0_3]
  obtain ⟨-, -, -, -, -, -, e0, e1⟩ := idx_facts0 ⟨(i 0).val / 5000, by rw [hN]; omega⟩
  intro a
  match a with
  | ⟨0, _⟩ =>
    show win0_3.index _ 0 * 5000 ≤ (i 0).val ∧ (i 0).val < win0_3.index _ 0 * 5000 + 5000
    rw [e0]; show (i 0).val / 5000 * 5000 ≤ (i 0).val ∧ (i 0).val < (i 0).val / 5000 * 5000 + 5000; omega
  | ⟨1, _⟩ =>
    show win0_3.index _ 1 * 64 ≤ (i 1).val ∧ (i 1).val < win0_3.index _ 1 * 64 + 64
    rw [e1]; omega

/-- THE ARRAY region 0 leaves: every row of x · w scaled by that row's factor. -/
theorem final0 (V : (c : Dev nD) → (b : Ref sig .tc) → Buf (Elt Ideal) ((c : Thread nD τ).loc b)) (c : Dev nD)
    (x : S100000x64.Idx → EReal) (w : S64x64.Idx → EReal) (dv : S100000x1.Idx → EReal)
    (hx : V c main_arg0 = x) (hw : V c main_arg2 = w) (hdv : V c main_v15 = dv) (p : Fin 100000) (q : Fin 64) :
    (show EReal from (dat0 (F := Ideal) V c).arrAt 3 cfg0.N (ix2 p q))
      = (∑ k : Fin 64, x (ix2 p k) * w (ix2 k q)) * dv (ix2 p 0) :=
  congrFun ((dat0 (F := Ideal) V c).arrAt_eq_of_cover 3 (G0 x w dv) (fun t _ => flushed0_eq V c x w dv hx hw hdv t) cover0) (ix2 p q)

/-! ## Region 1 : scale the rows, add the bias row, clamp at zero -/

/-- The block index maps over the grid: the row blocks move with the point, the bias block stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the summed rows is rows 5000 t … 5000 t + 4999 of the array. -/
theorem blk1_0_apply (V : (c : Dev nD) → (b : Ref sig .tc) → Buf (Elt Ideal) ((c : Thread nD τ).loc b)) (c : Dev nD)
    (t : Fin cfg1.N) (y : S5000x64.Idx) (k : S100000x64.Idx)
    (hk0 : (k 0).val = 5000 * t.val + (y 0).val) (hk1 : (k 1).val = (y 1).val) :
    (iblk1 (F := Ideal) V c 0 t : S5000x64.Idx → EReal) y = (V c main_v27 : S100000x64.Idx → EReal) k := by
  obtain ⟨e0, e1, -⟩ := idx_facts1 t
  unfold iblk1
  rw [View.read_apply]
  show (V c main_v27 : S100000x64.Idx → EReal) _ = _
  refine congrArg _ (funext fun a => Fin.ext ?_)
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- Block t of the scaling column is its rows 5000 t … 5000 t + 4999. -/
theorem blk1_1_apply (V : (c : Dev nD) → (b : Ref sig .tc) → Buf (Elt Ideal) ((c : Thread nD τ).loc b)) (c : Dev nD)
    (t : Fin cfg1.N) (y : S5000x1.Idx) (k : S100000x1.Idx)
    (hk0 : (k 0).val = 5000 * t.val + (y 0).val) (hk1 : (k 1).val = (y 1).val) :
    (iblk1 (F := Ideal) V c 1 t : S5000x1.Idx → EReal) y = (V c main_v15 : S100000x1.Idx → EReal) k := by
  obtain ⟨-, -, e0, e1, -⟩ := idx_facts1 t
  unfold iblk1
  rw [View.read_apply]
  show (V c main_v15 : S100000x1.Idx → EReal) _ = _
  refine congrArg _ (funext fun a => Fin.ext ?_)
  match a with
  | ⟨0, _⟩ => show win1_1.index t 0 * 5000 + 1 * (y 0).val = (k 0).val; rw [e0, hk0]; omega
  | ⟨1, _⟩ => show win1_1.index t 1 * 1 + 1 * (y 1).val = (k 1).val; rw [e1, hk1]; omega

/-- The bias row's one block is the whole row, at every point. -/
theorem blk1_2_apply (V : (c : Dev nD) → (b : Ref sig .tc) → Buf (Elt Ideal) ((c : Thread nD τ).loc b)) (c : Dev nD)
    (t : Fin cfg1.N) (y : S1x64.Idx) :
    (iblk1 (F := Ideal) V c 2 t : S1x64.Idx → EReal) y = (V c main_v28 : S1x64.Idx → EReal) y := by
  obtain ⟨-, -, -, -, e0, e1, -⟩ := idx_facts1 t
  unfold iblk1
  rw [View.read_apply]
  show (V c main_v28 : S1x64.Idx → EReal) _ = _
  refine congrArg _ (funext fun a => Fin.ext ?_)
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- An element of the output's block t sits in the array at row 5000 t + its row, same column. -/
theorem emb1_3 (t : Fin cfg1.N) (y : S5000x64.Idx) (k : S100000x64.Idx)
    (hk0 : (k 0).val = 5000 * t.val + (y 0).val) (hk1 : (k 1).val = (y 1).val) :
    ((cfg1.win 3).blk t).view.emb y = k := by
  obtain ⟨-, -, -, -, -, -, e0, e1⟩ := idx_facts1 t
  refine funext fun a => Fin.ext ?_
  match a with
  | ⟨0, _⟩ => show win1_3.index t 0 * 5000 + 1 * (y 0).val = (k 0).val; rw [e0, hk0]; omega
  | ⟨1, _⟩ => show win1_3.index t 1 * 64 + 1 * (y 1).val = (k 1).val; rw [e1, hk1]; omega

/-- What region 1 computes, as one function of the three arrays it reads: each entry scaled by its row's factor, the
    bias of its column added, and the result clamped below at zero. -/
def G1 (a : S100000x64.Idx → EReal) (dv : S100000x1.Idx → EReal) (b : S1x64.Idx → EReal) : S100000x64.Idx → EReal :=
  fun i => max (a (ix2 (i 0) (i 1)) * dv (ix2 (i 0) 0) + b (ix2 0 (i 1))) 0

/-- What point t writes back is block t of that function. -/
theorem flushed1_eq (V : (c : Dev nD) → (b : Ref sig .tc) → Buf (Elt Ideal) ((c : Thread nD τ).loc b)) (c : Dev nD)
    (a : S100000x64.Idx → EReal) (dv : S100000x1.Idx → EReal) (b : S1x64.Idx → EReal)
    (ha : V c main_v27 = a) (hdv : V c main_v15 = dv) (hb : V c main_v28 = b) (t : Fin cfg1.N) :
    (dat1 (F := Ideal) V c).flushed 3 t = ((cfg1.win 3).blk t).view.read (Elt Ideal) (G1 a dv b) := by
  subst ha hdv hb
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  funext j
  obtain ⟨r, q, rfl⟩ : ∃ (r : Fin 5000) (q : Fin 64), j = ix2 r q := ⟨j 0, j 1, eq_ix2 j⟩
  have ht : t.val < 20 := Nat.lt_of_lt_of_eq t.isLt (show cfg1.N = 20 from N_1)
  rw [View.read_apply, emb1_3 t (ix2 r q) (ix2 (⟨5000 * t.val + r.val, by have := r.isLt; omega⟩ : Fin 100000) q) rfl rfl]
  refine (pay1_apply _ _ _ r q).trans ?_
  refine congrArg₂ (fun u v : EReal => max u v) (congrArg₂ (fun u v : EReal => u + v) (congrArg₂ (fun u v : EReal => u * v) ?_ ?_) ?_) rfl
  · exact blk1_0_apply V c t (ix2 r q) (ix2 _ q) rfl rfl
  · exact blk1_1_apply V c t (ix2 r 0) (ix2 _ 0) rfl rfl
  · exact blk1_2_apply V c t (ix2 0 q)

/-- An index of the output array is in point t's block iff its row is among the block's 5000 rows. -/
theorem mem_blk1_3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v29).slice (win1_3.rect t)).set ↔ _
  rw [View.set_slice_whole, Rect.mem_set_unit]
  exact Iff.rfl

/-- The twenty blocks cover the array: row p is in block p / 5000. -/
theorem cover1 (i : S100000x64.Idx) : ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 20 := N_1
  refine ⟨⟨(i 0).val / 5000, by rw [hN]; omega⟩, flush1_3 _, ?_⟩
  rw [mem_blk1_3]
  obtain ⟨-, -, -, -, -, -, e0, e1⟩ := idx_facts1 ⟨(i 0).val / 5000, by rw [hN]; omega⟩
  intro a
  match a with
  | ⟨0, _⟩ =>
    show win1_3.index _ 0 * 5000 ≤ (i 0).val ∧ (i 0).val < win1_3.index _ 0 * 5000 + 5000
    rw [e0]; show (i 0).val / 5000 * 5000 ≤ (i 0).val ∧ (i 0).val < (i 0).val / 5000 * 5000 + 5000; omega
  | ⟨1, _⟩ =>
    show win1_3.index _ 1 * 64 ≤ (i 1).val ∧ (i 1).val < win1_3.index _ 1 * 64 + 64
    rw [e1]; omega

/-- THE ARRAY region 1 leaves: every entry scaled by its row's factor, its column's bias added, clamped at zero. -/
theorem final1 (V : (c : Dev nD) → (b : Ref sig .tc) → Buf (Elt Ideal) ((c : Thread nD τ).loc b)) (c : Dev nD)
    (a : S100000x64.Idx → EReal) (dv : S100000x1.Idx → EReal) (b : S1x64.Idx → EReal)
    (ha : V c main_v27 = a) (hdv : V c main_v15 = dv) (hb : V c main_v28 = b) (p : Fin 100000) (q : Fin 64) :
    (show EReal from (dat1 (F := Ideal) V c).arrAt 3 cfg1.N (ix2 p q))
      = max (a (ix2 p q) * dv (ix2 p 0) + b (ix2 0 q)) 0 :=
  congrFun ((dat1 (F := Ideal) V c).arrAt_eq_of_cover 3 (G1 a dv b) (fun t _ => flushed1_eq V c a dv b ha hdv hb t) cover1) (ix2 p q)

end Cert.KernelIdeal.RegionValue

end
-- ==== Proof.KValue.lean ====
/-
  The kernel's result, entry by entry, as a function of the four argument arrays.
  The first region's table holds (x·W)(p, q) · dinv(p); the host sums its gathered rows by destination (`aggK`); the second
  region scales row p of that sum by dinv(p), adds the bias and clamps below at zero.
-/
import proofs.«142132_j28303834481477_2_alg».proof.Proof.KFold
import proofs.«142132_j28303834481477_2_alg».proof.Proof.RegionValue
import proofs.«142132_j28303834481477_2_alg».proof.Proof.LibPlain
import Idealize.ShloMosaic.Lib.Pipeline.Value

set_option maxRecDepth 16384

noncomputable section

namespace Cert.KernelIdeal.Fold

open Idealize.ShloMosaic Idealize.ShloMosaic.ValueIdx Idealize.ShloMosaic.TcCoe Idealize.SL.Sem
open Cert.KernelIdeal Cert.KernelIdeal.Gen Cert.Graph

/-- A vector of N entries recast as the one row [1, N] holds entry q at (0, q). -/
theorem shapeCast_oneRow {α : Type} {N : Nat} (x : (⟨1, ![N]⟩ : Shape).Idx → α) (h : (⟨1, ![N]⟩ : Shape).ShapeCasts ⟨2, ![1, N]⟩)
    (q : Fin N) : shapeCast ⟨2, ![1, N]⟩ x h (ix2 (0 : Fin 1) q) = x (ix1 q) := by
  refine shapeCast_apply x h (ix2 (0 : Fin 1) q) (ix1 q) ?_
  rw [Shape.rowMajor_val_one, Shape.rowMajor_val_two]
  show q.val = (0 : Fin 1).val * N + q.val
  simp

variable (m : (ℓ : Loc nD τ sig) → Buf (Elt Ideal) ℓ) (ρ : Dev nD → PrngReg) (c : Dev nD)

/-- The four argument arrays as launched. -/
abbrev argX : S100000x64.Idx → EReal := m ((c.tc : Thread nD τ).loc main_arg0)
abbrev argE : IVec S2x1200000 32 := m ((c.tc : Thread nD τ).loc main_arg1)
abbrev argW : S64x64.Idx → EReal := m ((c.tc : Thread nD τ).loc main_arg2)
abbrev argB : S64.Idx → EReal := m ((c.tc : Thread nD τ).loc main_arg3)

/-- The first region's output table, as the host finds it afterwards. -/
def hsK : FVec Ideal S100000x64 .bf16 := W4 m ρ c (Proc.devRef .tc main_v16)

/-- Its entry (p, q): row p of x times column q of W, scaled by dinv(p). -/
theorem hsK_at (p : Fin 100000) (q : Fin 64) :
    hsK m ρ c (ix2 p q) = (∑ k : Fin 64, argX m c (ix2 p k) * argW m c (ix2 k q)) * dinvOf (argE m c) (ix1 p) := by
  have h := RegionValue.final0 (V3 m ρ) c (argX m c) (argW m c)
    (shapeCast S100000x1 (dinvOf (argE m c)) shapeCasts_S100000_S100000x1) (W3_arg0 m ρ c) (W3_arg2 m ρ c) (W3_dinv m ρ c) p q
  rw [shapeCast_col] at h
  exact (congrFun (W4_arr m ρ c 3) (ix2 p q)).trans h

/-- The kernel's result at (p, q). -/
theorem kernel_value (p : Fin 100000) (q : Fin 64) :
    (show EReal from W6 m ρ c (Proc.devRef .tc main_v29) (ix2 p q))
      = max (aggK (hsK m ρ c) (srcOf (argE m c)) (dstOf (argE m c)) (ix2 p q) * dinvOf (argE m c) (ix1 p) + argB m c (ix1 q)) 0 := by
  have h := RegionValue.final1 (V5 m ρ) c (aggK (hsK m ρ c) (srcOf (argE m c)) (dstOf (argE m c)))
    (shapeCast S100000x1 (dinvOf (argE m c)) shapeCasts_S100000_S100000x1) (shapeCast S1x64 (argB m c) shapeCasts_S64_S1x64)
    (W5_agg m ρ c) (W5_dinv m ρ c) (W5_bias m ρ c) p q
  rw [shapeCast_col, shapeCast_oneRow] at h
  exact (congrFun (W6_arr m ρ c 3) (ix2 p q)).trans h

end Cert.KernelIdeal.Fold

end
-- ==== Proof.GraphAlg.lean ====
import proofs.«142132_j28303834481477_2_alg».proof.Proof.Gen.Pre_finite_inputs
import Idealize.ShloMosaic.Lib.ValueIdx
import Idealize.ShloMosaic.Lib.ReduceAll
import Idealize.ShloMosaic.PureOps.Ideal.Laws

/-!
# Finiteness of the inputs and the one algebraic law

The two programs differ by where the normalising coefficients are applied: one scales every
gathered row before the rows are summed, the other scales the sum. Over the reals these agree,
because multiplication distributes over a finite sum. Over the extended reals multiplication
does not distribute over addition in general (the sum `⊤ + ⊥` is the obstruction), so every
quantity that enters the law is first shown to be a real number:

* the entries of the two float inputs, from the stated precondition `|v| < +∞` at every entry;
* a finite sum of products of reals;
* the inverse square root of a degree, taken only where the degree is positive and replaced by
  zero elsewhere.
-/

noncomputable section
open Idealize.ShloMosaic Idealize.ShloMosaic.ValueIdx Idealize.ShloMosaic.TcCoe Idealize.SL.Sem

namespace Cert.GraphAlg
variable [Cert.Pre_finite_inputs.Facts]

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value `max a (-a)` is strictly below `+∞` is a real: both
    infinities have absolute value `⊤`. -/
theorem real_of_abs_lt (a : EReal)
    (h : Ideal.cmp .olt (max a (-a)) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- The result shape of a reduction over every axis has exactly one index. -/
local instance : Subsingleton Cert.Pre_finite_inputs.S_.Idx := ⟨fun a b => funext fun d => d.elim0⟩

theorem finite_of_pre (x : FVec Ideal Cert.Pre_finite_inputs.S100000x64 .f32) (ei : IVec Cert.Pre_finite_inputs.S2x1200000 32)
    (w : FVec Ideal Cert.Pre_finite_inputs.S64x64 .f32) (b : FVec Ideal Cert.Pre_finite_inputs.S64 .f32)
    (h : Cert.Pre_finite_inputs.fn (F := Ideal) x ei w b = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨h1, _⟩ := IntOp.andi_eq_one.1 h0
  obtain ⟨hx, hw⟩ := IntOp.andi_eq_one.1 h1
  exact ⟨fun i => real_of_abs_lt _ (Host.reduce_andi_all _ _ _ _ _ hx i),
    fun i => real_of_abs_lt _ (Host.reduce_andi_all _ _ _ _ _ hw i)⟩

/-- a finite sum of products of reals is a real -/
theorem dot_real {n : Nat} (a b : Fin n → EReal) (ha : ∀ k, ∃ r : ℝ, a k = (r : EReal)) (hb : ∀ k, ∃ r : ℝ, b k = (r : EReal)) :
    ∃ r : ℝ, (∑ k, a k * b k) = (r : EReal) := by
  choose ra hra using ha
  choose rb hrb using hb
  refine ⟨∑ k, ra k * rb k, ?_⟩
  rw [coe_sum]
  exact Finset.sum_congr rfl fun k _ => by rw [hra, hrb, EReal.coe_mul]

/-- the inverse square root chosen where the degree is positive, zero elsewhere, is a real -/
theorem dinv_real (deg : EReal) :
    ∃ r : ℝ, Scalar.select (FloatOps.cmpf (F := Ideal) (φ := .f32) .ogt deg (Ideal.ofBits .f32 0x00000000#32)) (Ideal.rsqrt deg) (Ideal.ofBits .f32 0x00000000#32) = (r : EReal) := by
  rw [Ideal.ofBits_zero_f32]
  by_cases hb : FloatOps.cmpf (F := Ideal) (φ := .f32) .ogt deg 0 = 1#1
  · rw [hb, select_one]
    have hpos : (0 : EReal) < deg := by
      by_contra hn
      have : FloatOps.cmpf (F := Ideal) (φ := .f32) .ogt deg 0 = 0#1 := by
        show BitVec.ofBool (decide ((0 : EReal) < deg)) = 0#1
        rw [decide_eq_false hn]; rfl
      rw [this] at hb
      exact absurd hb (by decide)
    induction deg using EReal.rec with
    | bot => exact absurd hpos (by simp)
    | coe r =>
      have hr : 0 < r := by exact_mod_cast hpos
      exact ⟨(Real.sqrt r)⁻¹, by rw [Ideal.rsqrt_coe, if_neg (not_lt.2 hr.le), if_neg hr.ne']⟩
    | top => exact ⟨0, by rw [Ideal.rsqrt_top, EReal.coe_zero]⟩
  · rw [eq_zero_of_ne_one hb, select_zero]
    exact ⟨0, by simp⟩

/-- scaling after the scatter is scaling each update that lands, when everything is real -/
theorem scatter_scale {s si su : Shape} (d : ScatterDims s si su) {wd : Nat} (idx : IVec si wd) (u u' : su.Idx → EReal) (cf : s.Idx → EReal)
    (hu : ∀ j, ∃ r : ℝ, u j = (r : EReal)) (hc : ∀ i, ∃ r : ℝ, cf i = (r : EReal))
    (hu' : ∀ j i, d.resultIdx? j idx = some i → u' j = u j * cf i) (i : s.Idx) :
    Ideal.hostScatterAdd d (fun _ => 0) idx u i * cf i = Ideal.hostScatterAdd d (fun _ => 0) idx u' i := by
  choose ru hru using hu
  obtain ⟨c, hc⟩ := hc i
  unfold Ideal.hostScatterAdd
  rw [zero_add, zero_add, Finset.sum_congr rfl fun j hj => hu' j i (Finset.mem_filter.1 hj).2]
  simp only [hru, hc]
  simp only [← EReal.coe_mul, ← coe_sum, Finset.sum_mul]

end Cert.GraphAlg
-- ==== Proof.GraphIdx.lean ====
import proofs.«142132_j28303834481477_2_alg».proof.Proof.Gen.KernelIdeal.Frame
import proofs.«142132_j28303834481477_2_alg».proof.Proof.Gen.Pre_finite_inputs
import proofs.«142132_j28303834481477_2_alg».proof.ReferenceIdeal
import Idealize.ShloMosaic.Lib.ValueIdx
import Idealize.ShloMosaic.Lib.Pipeline.Value
import Idealize.ShloMosaic.PureOps.Ideal.Laws

noncomputable section
open Idealize.ShloMosaic Idealize.ShloMosaic.ValueIdx Idealize.ShloMosaic.TcCoe Idealize.SL.Sem

namespace Cert.GraphIdx
open Cert.ReferenceIdeal
variable [Cert.ReferenceIdeal.Facts]

/-- the row a start-index word names: read signed, clamped into [0, 99999] -/
def rowOf (v : BitVec 32) : Fin 100000 := ⟨min v.toInt.toNat 99999, by omega⟩

/-! ## The gathers and the scatter of this graph, read at an index

  Each of the three records below describes the simplest non-trivial case of its operation: one
  start index per edge (the index vector has length one and names the row axis), the row axis
  collapsed (gather) or inserted (scatter), and — for the rank-2 table — the feature axis carried
  whole as the one offset / window axis. So the operand index of result element (e, q) is
  (row named by word e, q), and an update (e, q') goes to (word e read signed, q') when that row
  exists. -/

local notation "gR" => gather_S100000x64_S1300000x1_S1300000x64_1_0_n_n_0_1_164
local notation "gV" => gather_S100000_S1300000x1_S1300000_n_0_n_n_0_1_1
local notation "sR" => scatter_S100000x64_S1300000x1_S1300000x64_1_0_0_1

/-! ### The gather of rows of the table -/

/-- The one component of edge e's start index sits at position (e, 0) of the index array. -/
theorem gR_siIdx (e : Fin 1300000) (q : Fin 64) (c : Fin (gR).startIndexMap.length) :
    (gR).siIdx (ix2 e q) c = ix2 e 0 := by
  funext b; refine Fin.ext ?_
  match b with
  | ⟨0, _⟩ => rfl
  | ⟨1, _⟩ =>
    have hc : c.val < 1 := c.isLt
    show c.val = 0
    omega

theorem gather_rows {α : Type} (x : S100000x64.Idx → α) (idx : IVec S1300000x1 32) (e : Fin 1300000) (q : Fin 64) :
    Host.gather gather_S100000x64_S1300000x1_S1300000x64_1_0_n_n_0_1_164 x idx (ix2 e q) = x (ix2 (rowOf (idx (ix2 e 0))) q) := by
  unfold Host.gather
  congr 1
  funext a
  refine Fin.ext ?_
  match a with
  | ⟨0, _⟩ =>
    -- the row axis: the clamped start, no batching coordinate, no offset (the axis is collapsed)
    show (gR).start (ix2 e q) idx 0 + (gR).batchCoord (ix2 e q) 0 + (gR).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gR).startIndexMap from List.mem_singleton.mpr rfl)]
    rw [gR_siIdx]
    rfl
  | ⟨1, _⟩ =>
    -- the feature axis: no start (the index map does not name it), the offset is q
    show (gR).start (ix2 e q) idx 1 + (gR).batchCoord (ix2 e q) 1 + (gR).offCoord (ix2 e q) 1 = q.val
    rw [GatherDims.batchCoord_eq_zero _ _ _ List.not_mem_nil]
    have hs : (gR).start (ix2 e q) idx 1 = 0 := by
      unfold GatherDims.start
      rw [dif_neg (show (1 : Fin 2) ∉ (gR).startIndexMap by show (1 : Fin 2) ∉ [0]; decide)]
    have hk : (1 : Fin 2) ∈ (gR).sKept := by
      show (1 : Fin 2) ∈ S100000x64.kept ([0] ++ []); decide
    rw [hs]
    unfold GatherDims.offCoord
    rw [dif_pos hk]
    simp only [Nat.zero_add, Nat.add_zero]
    rfl

/-! ### The gather of entries of the vector -/

theorem gV_siIdx (e : Fin 1300000) (c : Fin (gV).startIndexMap.length) :
    (gV).siIdx (ix1 e) c = ix2 e 0 := by
  funext b; refine Fin.ext ?_
  match b with
  | ⟨0, _⟩ => rfl
  | ⟨1, _⟩ =>
    have hc : c.val < 1 := c.isLt
    show c.val = 0
    omega

theorem gather_entries {α : Type} (v : S100000.Idx → α) (idx : IVec S1300000x1 32) (e : Fin 1300000) :
    Host.gather gather_S100000_S1300000x1_S1300000_n_0_n_n_0_1_1 v idx (ix1 e) = v (ix1 (rowOf (idx (ix2 e 0)))) := by
  unfold Host.gather
  congr 1
  funext a
  obtain rfl : a = 0 := Subsingleton.elim _ _
  refine Fin.ext ?_
  show (gV).start (ix1 e) idx 0 + (gV).batchCoord (ix1 e) 0 + (gV).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gV).startIndexMap from List.mem_singleton.mpr rfl)]
  rw [gV_siIdx]
  rfl

/-! ### The scatter: where an update lands -/

theorem sR_siIdx (e : Fin 1300000) (q' : Fin 64) (c : Fin (sR).scatterDimsToOperandDims.length) :
    (sR).siIdx (ix2 e q') c = ix2 e 0 := by
  funext b; refine Fin.ext ?_
  match b with
  | ⟨0, _⟩ => rfl
  | ⟨1, _⟩ =>
    have hc : c.val < 1 := c.isLt
    show c.val = 0
    omega

/-- On the row axis the window starts at edge e's word, read signed. -/
theorem sR_start0 (idx : IVec S1300000x1 32) (e : Fin 1300000) (q' : Fin 64) :
    (sR).start (ix2 e q') idx 0 = (idx (ix2 e 0)).toInt := by
  unfold ScatterDims.start
  rw [dif_pos (show (0 : Fin 2) ∈ (sR).scatterDimsToOperandDims from List.mem_singleton.mpr rfl), sR_siIdx]

/-- On the feature axis the window starts at 0. -/
theorem sR_start1 (idx : IVec S1300000x1 32) (e : Fin 1300000) (q' : Fin 64) :
    (sR).start (ix2 e q') idx 1 = 0 := by
  unfold ScatterDims.start
  rw [dif_neg (show (1 : Fin 2) ∉ (sR).scatterDimsToOperandDims by show (1 : Fin 2) ∉ [0]; decide)]

/-- The row axis is inserted: no window coordinate. -/
theorem sR_window0 (e : Fin 1300000) (q' : Fin 64) : (sR).window (ix2 e q') 0 = 0 := by
  unfold ScatterDims.window
  rw [dif_neg (show (0 : Fin 2) ∉ (sR).sKept by show (0 : Fin 2) ∉ S100000x64.kept [0]; decide)]

/-- The feature axis is the one window axis: its coordinate is the update's. -/
theorem sR_window1 (e : Fin 1300000) (q' : Fin 64) : (sR).window (ix2 e q') 1 = q'.val := by
  unfold ScatterDims.window
  rw [dif_pos (show (1 : Fin 2) ∈ (sR).sKept by show (1 : Fin 2) ∈ S100000x64.kept [0]; decide)]
  rfl

theorem scatter_lands (idx : IVec S1300000x1 32) (e : Fin 1300000) (q' : Fin 64) (p : Fin 100000) (q : Fin 64) :
    scatter_S100000x64_S1300000x1_S1300000x64_1_0_0_1.resultIdx? (ix2 e q') idx = some (ix2 p q)
      ↔ ((idx (ix2 e 0)).toInt = (p.val : Int) ∧ q' = q) := by
  have hp := p.isLt
  have hq' := q'.isLt
  unfold ScatterDims.resultIdx?
  split
  · rename_i h
    rw [Option.some.injEq]
    constructor
    · intro hf
      have h0 : ((sR).start (ix2 e q') idx 0 + ((sR).window (ix2 e q') 0 : Int)).toNat = p.val :=
        congrArg Fin.val (congrFun hf 0)
      have h1 : ((sR).start (ix2 e q') idx 1 + ((sR).window (ix2 e q') 1 : Int)).toNat = q.val :=
        congrArg Fin.val (congrFun hf 1)
      have g0 := (h 0).1
      rw [sR_start0, sR_window0] at h0 g0
      rw [sR_start1, sR_window1] at h1
      refine ⟨by omega, Fin.ext (by omega)⟩
    · rintro ⟨hv, rfl⟩
      funext a; refine Fin.ext ?_
      match a with
      | ⟨0, _⟩ =>
        show ((sR).start (ix2 e q') idx 0 + ((sR).window (ix2 e q') 0 : Int)).toNat = p.val
        rw [sR_start0, sR_window0, hv]; omega
      | ⟨1, _⟩ =>
        show ((sR).start (ix2 e q') idx 1 + ((sR).window (ix2 e q') 1 : Int)).toNat = q'.val
        rw [sR_start1, sR_window1]; omega
  · rename_i h
    constructor
    · intro hf; exact absurd hf (by simp)
    · rintro ⟨hv, rfl⟩
      exfalso; apply h; intro a
      match a with
      | ⟨0, _⟩ =>
        show 0 ≤ (sR).start (ix2 e q') idx 0 + ((sR).window (ix2 e q') 0 : Int)
          ∧ (sR).start (ix2 e q') idx 0 + ((sR).window (ix2 e q') 0 : Int) < ((100000 : Nat) : Int)
        rw [sR_start0, sR_window0, hv]; omega
      | ⟨1, _⟩ =>
        show 0 ≤ (sR).start (ix2 e q') idx 1 + ((sR).window (ix2 e q') 1 : Int)
          ∧ (sR).start (ix2 e q') idx 1 + ((sR).window (ix2 e q') 1 : Int) < ((64 : Nat) : Int)
        rw [sR_start1, sR_window1]; omega

/-! ### Wrapping a word that is already a row -/

/-- the wrapped index (negative words moved up by 100000) of a word that already names row p is that word -/
theorem wrap_of_lands (v : BitVec 32) (p : Fin 100000) (h : v.toInt = (p.val : Int)) :
    rowOf (Scalar.select (IntOp.cmpi .slt v 0#32) (v + 100000#32) v) = p := by
  have hp := p.isLt
  -- the word is not negative, so the comparison is false and the select keeps the word
  have hc : IntOp.cmpi .slt v 0#32 = 0#1 := by
    show BitVec.ofBool (v.slt 0#32) = 0#1
    have hs : v.slt 0#32 = false := by
      simp [BitVec.slt, h]
    rw [hs]; rfl
  rw [hc, select_zero]
  apply Fin.ext
  show min v.toInt.toNat 99999 = p.val
  rw [h]; omega

/-- The same fact with the sum written as the integer addition operation. -/
theorem wrap_of_lands_addi (v : BitVec 32) (p : Fin 100000) (h : v.toInt = (p.val : Int)) :
    rowOf (Scalar.select (IntOp.cmpi .slt v 0#32) (IntOp.addi v 100000#32) v) = p :=
  wrap_of_lands v p h

/-- The same fact for the wrapped index vector read at an element: z is 0 and k is 100000 there. -/
theorem wrap_vec_of_lands {s : Shape} (w z k : IVec s 32) (i : s.Idx) (hz : z i = 0#32) (hk : k i = 100000#32)
    (p : Fin 100000) (h : (w i).toInt = (p.val : Int)) :
    rowOf (select (cmpi .slt w z) (addi w k) w i) = p := by
  show rowOf (Scalar.select (IntOp.cmpi .slt (w i) (z i)) (IntOp.addi (w i) (k i)) (w i)) = p
  rw [hz, hk]
  exact wrap_of_lands (w i) p h
end Cert.GraphIdx
end
-- ==== Proof.Bridge.lean ====
import proofs.«142132_j28303834481477_2_alg».proof.Proof.GraphDefs
import proofs.«142132_j28303834481477_2_alg».proof.Proof.GraphAlg
import proofs.«142132_j28303834481477_2_alg».proof.Proof.GraphIdx
import proofs.«142132_j28303834481477_2_alg».proof.Proof.LibPlain
import Idealize.ShloMosaic.Lib.ValueIdx
import Idealize.ShloMosaic.Lib.Pipeline.Value
import Idealize.ShloMosaic.Lib.IdealHost
import Idealize.ShloMosaic.Lib.KernelVsHost
import Idealize.ShloMosaic.PureOps.Ideal.Laws

/-!
# The bridge: scaling each gathered row before the sum, or the sum after it

The reference sums, into destination row `p`, the rows `H[src e] · dinv[src e] · dinv[dst e]` over the
edges `e` whose destination is `p` (`H = x · W`). The kernel's aggregation sums the rows
`hs[src e] = H[src e] · dinv[src e]` over the same edges and the second region multiplies the sum by
`dinv[p]`. An edge lands on row `p` exactly when its destination word, read signed, is `p`, and then
the wrapped and clamped destination row the reference's gather reads is `p` too; so each summand of the
reference is the kernel's summand times `dinv[p]`, and the two sums agree because every quantity is a
real number, over which multiplication distributes over a finite sum.
-/

noncomputable section
namespace Cert.Graph
open Idealize.ShloMosaic Idealize.ShloMosaic.ValueIdx Cert.ReferenceIdeal Cert.ReferenceIdeal.Gen

/-! ## Broadcasts read at an index -/

/-- A vector made a one-column array, at (e, c): the vector at e. -/
theorem bcast_vec_apply {α : Type} {n : Nat} (h : (⟨1, ![n]⟩ : Shape).BroadcastsInDim ⟨2, ![n, 1]⟩ ![0])
    (v : (⟨1, ![n]⟩ : Shape).Idx → α) (e : Fin n) (c : Fin 1) :
    broadcastInDim ⟨2, ![n, 1]⟩ ![0] h v (ix2 e c) = v (ix1 e) := by
  refine broadcastInDim_apply ![0] h v (ix2 e c) (ix1 e) ?_
  intro a
  obtain rfl : a = 0 := Subsingleton.elim _ _
  show e.val = if n = 1 then 0 else e.val
  split_ifs with hn
  · have := e.isLt; omega
  · rfl

/-- A one-column array broadcast along the columns, at (e, q): the column at e. -/
theorem bcast_col_apply {α : Type} {n m : Nat} (h : (⟨2, ![n, 1]⟩ : Shape).BroadcastsInDim ⟨2, ![n, m]⟩ ![0, 1])
    (y : (⟨2, ![n, 1]⟩ : Shape).Idx → α) (e : Fin n) (q : Fin m) :
    broadcastInDim ⟨2, ![n, m]⟩ ![0, 1] h y (ix2 e q) = y (ix2 e 0) := by
  refine broadcastInDim_apply ![0, 1] h y (ix2 e q) (ix2 e 0) ?_
  intro a
  match a with
  | ⟨0, _⟩ =>
    show e.val = if n = 1 then 0 else e.val
    split_ifs with hn
    · have := e.isLt; omega
    · rfl
  | ⟨1, _⟩ =>
    show (0 : Fin 1).val = if (1 : Nat) = 1 then 0 else q.val
    rw [if_pos rfl]; rfl

/-- A vector made a one-row array, at (r, q): the vector at q. -/
theorem bcast_row_apply {α : Type} {n : Nat} (h : (⟨1, ![n]⟩ : Shape).BroadcastsInDim ⟨2, ![1, n]⟩ ![1])
    (v : (⟨1, ![n]⟩ : Shape).Idx → α) (r : Fin 1) (q : Fin n) :
    broadcastInDim ⟨2, ![1, n]⟩ ![1] h v (ix2 r q) = v (ix1 q) := by
  refine broadcastInDim_apply ![1] h v (ix2 r q) (ix1 q) ?_
  intro a
  obtain rfl : a = 0 := Subsingleton.elim _ _
  show q.val = if n = 1 then 0 else q.val
  split_ifs with hn
  · have := q.isLt; omega
  · rfl

/-- The zero splat is the zero function. -/
theorem zero_splat :
    (broadcastInDim S100000x64 ![] bcast_S_S100000x64 (constant (F := Ideal) S_ .f32 0x00000000#32) : FVec Ideal S100000x64 .f32) = fun _ => (0 : EReal) := by
  funext j
  rw [broadcastInDim_scalar_apply, constant_apply, Ideal.ofBits_zero_f32]

/-! ## The pieces are real -/

/-- For any degree vector: the inverse square root where the degree is positive, zero elsewhere, is a real. -/
theorem dinv_form (v : FVec Ideal S100000 .f32) (i : S100000.Idx) :
    ∃ r : ℝ, select (cmpf (F := Ideal) .ogt v (broadcastInDim S100000 ![] bcast_S_S100000 (constant S_ .f32 0x00000000#32))) (Host.rsqrt v) (broadcastInDim S100000 ![] bcast_S_S100000 (id (constant S_ .f32 0x00000000#32))) i = (r : EReal) := by
  rw [select_apply, cmpf_apply, broadcastInDim_scalar_apply, broadcastInDim_scalar_apply, id, constant_apply]
  exact Cert.GraphAlg.dinv_real (v i)

/-- The inverse square root of the degree, zero where the degree is not positive, is a real. -/
theorem dinvOf_real (ei : IVec S2x1200000 32) (i : S100000.Idx) : ∃ r : ℝ, dinvOf ei i = (r : EReal) := by
  unfold dinvOf
  exact dinv_form (degOf ei) i

/-- The product x · W at (p, q) is the sum over k of x(p,k) · W(k,q). -/
theorem xw_apply (x : FVec Ideal S100000x64 .f32) (w : FVec Ideal S64x64 .f32) (p : Fin 100000) (q : Fin 64) :
    Host.dotGeneral (F := Ideal) dot_S100000x64_S64x64_S100000x64_1_0_0_1_n_n none x w (ix2 p q)
      = ∑ k : Fin 64, x (ix2 p k) * w (ix2 k q) :=
  Ideal.dotGeneral_plain_apply none .single x w p q

/-! ## The two update arrays, read at an index -/

open Cert.GraphIdx

/-- The kernel's updates: the rows of the narrow table gathered at the wrapped source indices, widened. -/
def updK (hs : FVec Ideal S100000x64 .bf16) (src : IVec S1300000 32) : FVec Ideal S1300000x64 .f32 :=
  extf .f32 (Host.gather gather_S100000x64_S1300000x1_S1300000x64_1_0_n_n_0_1_164 hs (wrapIx src)) (by decide)

theorem updK_apply (hs : FVec Ideal S100000x64 .bf16) (src : IVec S1300000 32) (e : Fin 1300000) (q' : Fin 64) :
    updK hs src (ix2 e q') = hs (ix2 (rowOf (wrapIx src (ix2 e 0))) q') := by
  unfold updK
  rw [extf_apply, gather_rows]

/-- The reference's updates: the gathered rows of the table, each scaled by the coefficient at its source row and at
    its destination row. -/
def updR (H : FVec Ideal S100000x64 .f32) (dinv : FVec Ideal S100000 .f32) (src dst : IVec S1300000 32) : FVec Ideal S1300000x64 .f32 :=
  mulf (Host.gather gather_S100000x64_S1300000x1_S1300000x64_1_0_n_n_0_1_164 H (wrapIx src)) (broadcastInDim S1300000x64 ![0, 1] bcast_S1300000x1_S1300000x64_0_1 (broadcastInDim S1300000x1 ![0] bcast_S1300000_S1300000x1_0 (mulf (Host.gather gather_S100000_S1300000x1_S1300000_n_0_n_n_0_1_1 dinv (wrapIx src)) (Host.gather gather_S100000_S1300000x1_S1300000_n_0_n_n_0_1_1 dinv (wrapIx dst)))))

theorem updR_apply (H : FVec Ideal S100000x64 .f32) (dinv : FVec Ideal S100000 .f32) (src dst : IVec S1300000 32)
    (e : Fin 1300000) (q' : Fin 64) :
    updR H dinv src dst (ix2 e q') = H (ix2 (rowOf (wrapIx src (ix2 e 0))) q')
      * (dinv (ix1 (rowOf (wrapIx src (ix2 e 0)))) * dinv (ix1 (rowOf (wrapIx dst (ix2 e 0))))) := by
  unfold updR
  rw [mulf_apply, gather_rows, bcast_col_apply, bcast_vec_apply, mulf_apply, gather_entries, gather_entries]

/-- The coefficient of a row, as a function of the full index. -/
def rowCoef (dinv : FVec Ideal S100000 .f32) : S100000x64.Idx → EReal :=
  fun i => dinv (ix1 (⟨(i 0).val, idx2_lt0 i⟩ : Fin 100000))

theorem rowCoef_apply (dinv : FVec Ideal S100000 .f32) (p : Fin 100000) (q : Fin 64) :
    rowCoef dinv (ix2 p q) = dinv (ix1 p) := rfl

/-- An unwrapped index array at (e, 0) is the index vector at e. -/
theorem rawIx_apply (v : IVec S1300000 32) (e : Fin 1300000) : rawIx v (ix2 e 0) = v (ix1 e) := by
  unfold rawIx
  rw [bcast_vec_apply]

/-- When the destination word of edge e, read signed, is row p, the wrapped and clamped destination row is p. -/
theorem wrap_dst_of_lands (dst : IVec S1300000 32) (e : Fin 1300000) (p : Fin 100000)
    (h : (rawIx dst (ix2 e 0)).toInt = (p.val : Int)) : rowOf (wrapIx dst (ix2 e 0)) = p := by
  rw [rawIx_apply] at h
  unfold wrapIx
  rw [bcast_vec_apply]
  exact wrap_vec_of_lands dst _ _ (ix1 e) rfl rfl p h

/-! ## The bridge -/

/-- Every update of the kernel is a real. -/
theorem updK_real (H : FVec Ideal S100000x64 .f32) (dinv : FVec Ideal S100000 .f32) (src : IVec S1300000 32)
    (hs : FVec Ideal S100000x64 .bf16)
    (hhs : ∀ (p : Fin 100000) (q : Fin 64), hs (ix2 p q) = H (ix2 p q) * dinv (ix1 p))
    (hH : ∀ i, ∃ r : ℝ, H i = (r : EReal)) (hd : ∀ i, ∃ r : ℝ, dinv i = (r : EReal))
    (j : S1300000x64.Idx) : ∃ r : ℝ, updK hs src j = (r : EReal) := by
  obtain ⟨e, q', rfl⟩ : ∃ (e : Fin 1300000) (q' : Fin 64), j = ix2 e q' := ⟨j 0, j 1, eq_ix2 j⟩
  obtain ⟨r1, h1⟩ := hH (ix2 (rowOf (wrapIx src (ix2 e 0))) q')
  obtain ⟨r2, h2⟩ := hd (ix1 (rowOf (wrapIx src (ix2 e 0))))
  exact ⟨r1 * r2, by rw [updK_apply, hhs, h1, h2, EReal.coe_mul]⟩

/-- An update of the reference that lands on a row is the kernel's update times that row's coefficient. -/
theorem upd_lands (H : FVec Ideal S100000x64 .f32) (dinv : FVec Ideal S100000 .f32) (src dst : IVec S1300000 32)
    (hs : FVec Ideal S100000x64 .bf16)
    (hhs : ∀ (p : Fin 100000) (q : Fin 64), hs (ix2 p q) = H (ix2 p q) * dinv (ix1 p))
    (j : S1300000x64.Idx) (i : S100000x64.Idx)
    (hl : scatter_S100000x64_S1300000x1_S1300000x64_1_0_0_1.resultIdx? j (rawIx dst) = some i) :
    updR H dinv src dst j = updK hs src j * rowCoef dinv i := by
  obtain ⟨e, q', rfl⟩ : ∃ (e : Fin 1300000) (q' : Fin 64), j = ix2 e q' := ⟨j 0, j 1, eq_ix2 j⟩
  obtain ⟨p', q'', rfl⟩ : ∃ (p' : Fin 100000) (q'' : Fin 64), i = ix2 p' q'' := ⟨i 0, i 1, eq_ix2 i⟩
  have hrow := wrap_dst_of_lands dst e p' ((scatter_lands (rawIx dst) e q' p' q'').1 hl).1
  rw [updR_apply, updK_apply, hhs, rowCoef_apply, hrow, mul_assoc]

/-- Scaling the kernel's aggregated row by its coefficient gives the reference's aggregated row. -/
theorem agg_scale (H : FVec Ideal S100000x64 .f32) (dinv : FVec Ideal S100000 .f32) (src dst : IVec S1300000 32)
    (hs : FVec Ideal S100000x64 .bf16)
    (hhs : ∀ (p : Fin 100000) (q : Fin 64), hs (ix2 p q) = H (ix2 p q) * dinv (ix1 p))
    (hH : ∀ i, ∃ r : ℝ, H i = (r : EReal)) (hd : ∀ i, ∃ r : ℝ, dinv i = (r : EReal))
    (p : Fin 100000) (q : Fin 64) :
    Ideal.hostScatterAdd scatter_S100000x64_S1300000x1_S1300000x64_1_0_0_1 (fun _ => 0) (rawIx dst) (updK hs src) (ix2 p q) * dinv (ix1 p)
      = Ideal.hostScatterAdd scatter_S100000x64_S1300000x1_S1300000x64_1_0_0_1 (fun _ => 0) (rawIx dst) (updR H dinv src dst) (ix2 p q) :=
  Cert.GraphAlg.scatter_scale scatter_S100000x64_S1300000x1_S1300000x64_1_0_0_1 (rawIx dst)
    (updK hs src) (updR H dinv src dst) (rowCoef dinv) (updK_real H dinv src hs hhs hH hd) (fun i => hd _)
    (upd_lands H dinv src dst hs hhs) (ix2 p q)

/-- The host's scatter-add at the ideal values is the exact sum of the updates that land. -/
theorem scatterAdd_ideal {s si su : Shape} {φ : FTy} {wd : Nat} (d : ScatterDims s si su) (v : FVec Ideal s φ) (idx : IVec si wd)
    (upd : FVec Ideal su φ) : Host.scatterAdd d v idx upd = Ideal.hostScatterAdd d v idx upd := rfl

/-- The bridge for any table H of reals, any coefficient vector of reals and any index vectors. -/
theorem bridge_gen (H : FVec Ideal S100000x64 .f32) (dinv : FVec Ideal S100000 .f32) (src dst : IVec S1300000 32)
    (b : FVec Ideal S64 .f32) (hs : FVec Ideal S100000x64 .bf16)
    (hhs : ∀ (p : Fin 100000) (q : Fin 64), hs (ix2 p q) = H (ix2 p q) * dinv (ix1 p))
    (hH : ∀ i, ∃ r : ℝ, H i = (r : EReal)) (hd : ∀ i, ∃ r : ℝ, dinv i = (r : EReal))
    (p : Fin 100000) (q : Fin 64) :
    maximumf (addf (Host.scatterAdd scatter_S100000x64_S1300000x1_S1300000x64_1_0_0_1 (broadcastInDim S100000x64 ![] bcast_S_S100000x64 (constant S_ .f32 0x00000000#32)) (rawIx dst) (mulf (Host.gather gather_S100000x64_S1300000x1_S1300000x64_1_0_n_n_0_1_164 H (wrapIx src)) (broadcastInDim S1300000x64 ![0, 1] bcast_S1300000x1_S1300000x64_0_1 (broadcastInDim S1300000x1 ![0] bcast_S1300000_S1300000x1_0 (mulf (Host.gather gather_S100000_S1300000x1_S1300000_n_0_n_n_0_1_1 dinv (wrapIx src)) (Host.gather gather_S100000_S1300000x1_S1300000_n_0_n_n_0_1_1 dinv (wrapIx dst))))))) (broadcastInDim S100000x64 ![0, 1] bcast_S1x64_S100000x64_0_1 (broadcastInDim S1x64 ![1] bcast_S64_S1x64_1 b))) (broadcastInDim S100000x64 ![] bcast_S_S100000x64 (constant S_ .f32 0x00000000#32)) (ix2 p q)
      = max (aggK hs src dst (ix2 p q) * dinv (ix1 p) + b (ix1 q)) 0 := by
  have key := agg_scale H dinv src dst hs hhs hH hd p q
  unfold updK updR at key
  unfold aggK
  rw [maximumf_apply, addf_apply, broadcastInDim_oneRow_apply, bcast_row_apply, scatterAdd_ideal, scatterAdd_ideal,
    zero_splat, key]

theorem bridge (x : FVec Ideal S100000x64 .f32) (ei : IVec S2x1200000 32) (w : FVec Ideal S64x64 .f32) (b : FVec Ideal S64 .f32)
    (hs : FVec Ideal S100000x64 .bf16)
    (hhs : ∀ (p : Fin 100000) (q : Fin 64), hs (ix2 p q) = (∑ k : Fin 64, x (ix2 p k) * w (ix2 k q)) * dinvOf ei (ix1 p))
    (hx : ∀ i, ∃ r : ℝ, x i = (r : EReal)) (hw : ∀ i, ∃ r : ℝ, w i = (r : EReal))
    (p : Fin 100000) (q : Fin 64) :
    refOut x ei w b (ix2 p q) = max (aggK hs (srcOf ei) (dstOf ei) (ix2 p q) * dinvOf ei (ix1 p) + b (ix1 q)) 0 := by
  -- the table x · W is a table of reals
  have hH : ∀ i, ∃ r : ℝ, Host.dotGeneral (F := Ideal) dot_S100000x64_S64x64_S100000x64_1_0_0_1_n_n none x w i = (r : EReal) := by
    intro i
    obtain ⟨p', q', rfl⟩ : ∃ (p' : Fin 100000) (q' : Fin 64), i = ix2 p' q' := ⟨i 0, i 1, eq_ix2 i⟩
    rw [xw_apply]
    exact Cert.GraphAlg.dot_real _ _ (fun k => hx _) (fun k => hw _)
  have hhs' : ∀ (p' : Fin 100000) (q' : Fin 64), hs (ix2 p' q')
      = Host.dotGeneral (F := Ideal) dot_S100000x64_S64x64_S100000x64_1_0_0_1_n_n none x w (ix2 p' q') * dinvOf ei (ix1 p') := by
    intro p' q'
    rw [xw_apply]
    exact hhs p' q'
  unfold refOut
  exact bridge_gen (Host.dotGeneral (F := Ideal) dot_S100000x64_S64x64_S100000x64_1_0_0_1_n_n none x w) (dinvOf ei) (srcOf ei) (dstOf ei)
    b hs hhs' hH (dinvOf_real ei) p q

end Cert.Graph
end
-- ==== Proof.lean ====
/-
  A graph-convolution layer with a ReLU: the tiled kernel against its plain reference, over the extended reals.

  Both programs compute, for every node p and feature q,
      out (p, q) = max ( Σ over the edges e into p of (x·W)(src e, q) · dinv(src e) · dinv(p)  +  bias(q) ,  0 ),
  where every node also has a self-loop, dinv is the inverse square root of the in-degree (zero where the degree is not
  positive), a source index is wrapped and clamped into the table as array indexing does, and an edge whose destination
  index is outside the table contributes nothing. The reference scales each gathered row of x·W by dinv(src)·dinv(dst)
  and then sums the rows by destination. The kernel scales row p of x·W by dinv(p) in its first tiled region, sums the
  gathered rows by destination on the host, and multiplies row p of the sum by dinv(p) in its second tiled region, where
  it also adds the bias and clamps at zero. The two agree because an edge that lands on row p has destination p, so its
  factor dinv(dst) is the common factor dinv(p), and a common real factor moves across a finite sum of reals; that x and W
  are finite (the precondition) makes every term real, dinv being real by construction. Changes of float format are the
  identity at this instance.

  The frames of the two kernels are the generated ones; the reference's frame is its run with the result dropped; the
  idealizing pass rewrote nothing.
-/
import proofs.«142132_j28303834481477_2_alg».proof.Defs
import proofs.«142132_j28303834481477_2_alg».proof.Proof.Gen.Kernel
import proofs.«142132_j28303834481477_2_alg».proof.Proof.Gen.Kernel.Frame
import proofs.«142132_j28303834481477_2_alg».proof.Proof.Gen.KernelIdeal
import proofs.«142132_j28303834481477_2_alg».proof.Proof.Gen.KernelIdeal.Frame
import proofs.«142132_j28303834481477_2_alg».proof.Proof.Gen.ReferenceIdeal
import proofs.«142132_j28303834481477_2_alg».proof.Proof.Gen.Pre_finite_inputs
import proofs.«142132_j28303834481477_2_alg».proof.Proof.RefRun
import proofs.«142132_j28303834481477_2_alg».proof.Proof.RefValue
import proofs.«142132_j28303834481477_2_alg».proof.Proof.KRun
import proofs.«142132_j28303834481477_2_alg».proof.Proof.KValue
import proofs.«142132_j28303834481477_2_alg».proof.Proof.GraphAlg
import proofs.«142132_j28303834481477_2_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealizing pass rewrote nothing. -/
theorem preserves : Cert.preserves_Kernel_KernelIdeal := trivial

/-- From memories that agree on the arguments, with x and W finite, both programs end with the same result array:
    entry (p, q) of either is max (Σ over the edges into p of (x·W)(src, q) · dinv(src) · dinv(p) + bias(q), 0); the kernel
    takes the factor dinv(p) out of the sum, which is distributivity over a finite sum of reals. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v29),
    Cert.KernelIdeal.Run.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.Graph.res_eq_refOut, (hagree c).1, (hagree c).2.1, (hagree c).2.2.1, (hagree c).2.2.2]
  have hfin := Cert.GraphAlg.finite_of_pre _ _ _ _ (hpre c)
  refine funext fun i => ?_
  obtain ⟨p, q, rfl⟩ : ∃ (p : Fin 100000) (q : Fin 64), i = ix2 p q := ⟨i 0, i 1, eq_ix2 i⟩
  rw [Cert.Graph.bridge _ _ _ _ (Cert.KernelIdeal.Fold.hsK m ρ c) (Cert.KernelIdeal.Fold.hsK_at m ρ c) hfin.1 hfin.2 p q]
  exact (Cert.KernelIdeal.Fold.kernel_value m ρ c p q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
